-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512 : Shape := ⟨3, ![8, 512, 512]⟩
abbrev S8x128x512 : Shape := ⟨3, ![8, 128, 512]⟩
abbrev S512x64 : Shape := ⟨2, ![512, 64]⟩
abbrev S64 : Shape := ⟨1, ![64]⟩
abbrev S64x64 : Shape := ⟨2, ![64, 64]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  bcast_S_S8x128x512 : S_.BroadcastsInDim S8x128x512 (![] : Fin 0 → Fin S8x128x512.rank)
  reducesTo_S8x128x512_S_d0_1_2 : S8x128x512.ReducesTo [0, 1, 2] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x512x512 .f32) (main_arg1 : FVec F S8x128x512 .f32) (main_arg2 : FVec F S512x64 .f32) (main_arg3 : FVec F S512x64 .f32) (main_arg4 : FVec F S64 .f32) (main_arg5 : FVec F S64x64 .f32) (main_arg6 : FVec F S64 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  let main_v4 : FVec F S8x128x512 .f32 := Host.absf main_arg1
  let main_cst_0 : FVec F S_ .f32 := constant S_ .f32 0x7F800000#32
  let main_v5 : FVec F S8x128x512 .f32 := broadcastInDim S8x128x512 ![] bcast_S_S8x128x512 main_cst_0
  let main_v6 : IVec S8x128x512 1 := cmpf .olt main_v4 main_v5
  let main_c_1 : IVec S_ 1 := constantI S_ 1 1#1
  let main_v7 : IVec S_ 1 := (fun x v => Host.reduce IntOp.andi x v reducesTo_S8x128x512_S_d0_1_2 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_arg6 main_v13 main_v16
-- ==== Kernel.lean ====
abbrev S8x512x512 : Shape := ⟨3, ![8, 512, 512]⟩
abbrev S8x128x512 : Shape := ⟨3, ![8, 128, 512]⟩
abbrev S512x64 : Shape := ⟨2, ![512, 64]⟩
abbrev S64 : Shape := ⟨1, ![64]⟩
abbrev S64x64 : Shape := ⟨2, ![64, 64]⟩
abbrev S8x512x8192 : Shape := ⟨3, ![8, 512, 8192]⟩
abbrev S1x256x512 : Shape := ⟨3, ![1, 256, 512]⟩
abbrev S1x128x512 : Shape := ⟨3, ![1, 128, 512]⟩
abbrev S1x256x8192 : Shape := ⟨3, ![1, 256, 8192]⟩
abbrev S256x512 : Shape := ⟨2, ![256, 512]⟩
abbrev S128x512 : Shape := ⟨2, ![128, 512]⟩
abbrev S256x64 : Shape := ⟨2, ![256, 64]⟩
abbrev S128x64 : Shape := ⟨2, ![128, 64]⟩
abbrev S256x1x64 : Shape := ⟨3, ![256, 1, 64]⟩
abbrev S1x128x64 : Shape := ⟨3, ![1, 128, 64]⟩
abbrev S256x128x64 : Shape := ⟨3, ![256, 128, 64]⟩
abbrev S1x1x64 : Shape := ⟨3, ![1, 1, 64]⟩
abbrev S32768x64 : Shape := ⟨2, ![32768, 64]⟩
abbrev S1x64 : Shape := ⟨2, ![1, 64]⟩
abbrev S256x8192 : Shape := ⟨2, ![256, 8192]⟩
abbrev S8x512x128x64 : Shape := ⟨4, ![8, 512, 128, 64]⟩

abbrev nBuf : Space → Nat
  | .hbm => 9
  | .vmem => 11
  | .smem => 0
  | _ => 0

abbrev bufTy : (tb : Table) → Fin (tcTables nBuf tb) → BufTy
  | .hbm, ⟨0, _⟩ => ⟨S8x512x512, .f32⟩
  | .hbm, ⟨1, _⟩ => ⟨S8x128x512, .f32⟩
  | .hbm, ⟨2, _⟩ => ⟨S512x64, .f32⟩
  | .hbm, ⟨3, _⟩ => ⟨S512x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S8x512x8192, .f32⟩
  | .hbm, ⟨8, _⟩ => ⟨S8x512x128x64, .f32⟩
  | .local _ .vmem, ⟨0, _⟩ => ⟨S1x256x512, .f32⟩
  | .local _ .vmem, ⟨1, _⟩ => ⟨S1x256x512, .f32⟩
  | .local _ .vmem, ⟨2, _⟩ => ⟨S1x128x512, .f32⟩
  | .local _ .vmem, ⟨3, _⟩ => ⟨S1x128x512, .f32⟩
  | .local _ .vmem, ⟨4, _⟩ => ⟨S512x64, .f32⟩
  | .local _ .vmem, ⟨5, _⟩ => ⟨S512x64, .f32⟩
  | .local _ .vmem, ⟨6, _⟩ => ⟨S64, .f32⟩
  | .local _ .vmem, ⟨7, _⟩ => ⟨S64x64, .f32⟩
  | .local _ .vmem, ⟨8, _⟩ => ⟨S64, .f32⟩
  | .local _ .vmem, ⟨9, _⟩ => ⟨S1x256x8192, .f32⟩
  | .local _ .vmem, ⟨10, _⟩ => ⟨S1x256x8192, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512x64_S512x64_0_0 : ∀ a, (![0, 0] : Fin 2 → Nat) a + S512x64.size a ≤ S512x64.size a
  h_S512x64 : 0 < S512x64.numel
  shapeCasts_S256x64_S256x1x64 : S256x64.ShapeCasts S256x1x64
  shapeCasts_S128x64_S1x128x64 : S128x64.ShapeCasts S1x128x64
  broadcasts_S256x1x64_S256x128x64 : S256x1x64.Broadcasts S256x128x64
  broadcasts_S1x128x64_S256x128x64 : S1x128x64.Broadcasts S256x128x64
  inb_S64_S64_0 : ∀ a, (![0] : Fin 1 → Nat) a + S64.size a ≤ S64.size a
  h_S64 : 0 < S64.numel
  shapeCasts_S64_S1x1x64 : S64.ShapeCasts S1x1x64
  broadcasts_S1x1x64_S256x128x64 : S1x1x64.Broadcasts S256x128x64
  shapeCasts_S256x128x64_S32768x64 : S256x128x64.ShapeCasts S32768x64
  inb_S64x64_S64x64_0_0 : ∀ a, (![0, 0] : Fin 2 → Nat) a + S64x64.size a ≤ S64x64.size a
  h_S64x64 : 0 < S64x64.numel
  shapeCasts_S64_S1x64 : S64.ShapeCasts S1x64
  broadcasts_S1x64_S32768x64 : S1x64.Broadcasts S32768x64
  shapeCasts_S32768x64_S256x8192 : S32768x64.ShapeCasts S256x8192
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  shapeCasts_S256x8192_S1x256x8192 : S256x8192.ShapeCasts S1x256x8192
  shapeCasts_S8x512x8192_S8x512x128x64 : S8x512x8192.ShapeCasts S8x512x128x64
  dot_S256x512_S512x64_S256x64_1_0_0_1_n_n_wf : DotDims.WF S256x512 S512x64 S256x64 [1] [0] [0] [1] [] []
  dot_S128x512_S512x64_S128x64_1_0_0_1_n_n_wf : DotDims.WF S128x512 S512x64 S128x64 [1] [0] [0] [1] [] []
  dot_S32768x64_S64x64_S32768x64_1_0_0_1_n_n_wf : DotDims.WF S32768x64 S64x64 S32768x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x512x512.size a
  hwx0_0 : ∀ i : grid0.Coords, EltTy.bits .f32 = 32 ∨ (Rect.block (s := S8x512x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x128x512.size a
  hwx0_1 : ∀ i : grid0.Coords, EltTy.bits .f32 = 32 ∨ (Rect.block (s := S8x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x8192.size a ≤ S8x512x8192.size a
  hwx0_7 : ∀ i : grid0.Coords, EltTy.bits .f32 = 32 ∨ (Rect.block (s := S8x512x8192) S1x256x8192.size (cc0_transform_7 i) (hinb0_7 i)).WholeWords (EltTy.packing .f32)

variable [Facts₀]

def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S128x512_S512x64_S128x64_1_0_0_1_n_n : DotDims S128x512 S512x64 S128x64 where
  lhsContracting := [1]
  rhsContracting := [0]
  lhsNonContracting := [0]
  rhsNonContracting := [1]
  lhsBatch := []
  rhsBatch := []
  wf := dot_S128x512_S512x64_S128x64_1_0_0_1_n_n_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x256x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x512x512 : Shape := ⟨3, ![8, 512, 512]⟩
abbrev S8x128x512 : Shape := ⟨3, ![8, 128, 512]⟩
abbrev S512x64 : Shape := ⟨2, ![512, 64]⟩
abbrev S64 : Shape := ⟨1, ![64]⟩
abbrev S64x64 : Shape := ⟨2, ![64, 64]⟩
abbrev S8x512x64 : Shape := ⟨3, ![8, 512, 64]⟩
abbrev S8x128x64 : Shape := ⟨3, ![8, 128, 64]⟩
abbrev S8x512x1x64 : Shape := ⟨4, ![8, 512, 1, 64]⟩
abbrev S8x1x128x64 : Shape := ⟨4, ![8, 1, 128, 64]⟩
abbrev S8x512x128x64 : Shape := ⟨4, ![8, 512, 128, 64]⟩
abbrev S1x1x1x64 : Shape := ⟨4, ![1, 1, 1, 64]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S8x128x512, .f32⟩
  | .hbm, ⟨2, _⟩ => ⟨S512x64, .f32⟩
  | .hbm, ⟨3, _⟩ => ⟨S512x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S8x512x64, .f32⟩
  | .hbm, ⟨8, _⟩ => ⟨S8x128x64, .f32⟩
  | .hbm, ⟨9, _⟩ => ⟨S8x512x1x64, .f32⟩
  | .hbm, ⟨10, _⟩ => ⟨S8x1x128x64, .f32⟩
  | .hbm, ⟨11, _⟩ => ⟨S8x512x128x64, .f32⟩
  | .hbm, ⟨12, _⟩ => ⟨S8x512x128x64, .f32⟩
  | .hbm, ⟨13, _⟩ => ⟨S8x512x128x64, .f32⟩
  | .hbm, ⟨14, _⟩ => ⟨S1x1x1x64, .f32⟩
  | .hbm, ⟨15, _⟩ => ⟨S8x512x128x64, .f32⟩
  | .hbm, ⟨16, _⟩ => ⟨S8x512x128x64, .f32⟩
  | .hbm, ⟨17, _⟩ => ⟨S_, .f32⟩
  | .hbm, ⟨18, _⟩ => ⟨S8x512x128x64, .f32⟩
  | .hbm, ⟨19, _⟩ => ⟨S8x512x128x64, .f32⟩
  | .hbm, ⟨20, _⟩ => ⟨S8x512x128x64, .f32⟩
  | .hbm, ⟨21, _⟩ => ⟨S1x1x1x64, .f32⟩
  | .hbm, ⟨22, _⟩ => ⟨S8x512x128x64, .f32⟩
  | .hbm, ⟨23, _⟩ => ⟨S8x512x128x64, .f32⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S8x512x64_S8x512x1x64_0_1_3 : S8x512x64.BroadcastsInDim S8x512x1x64 (![0, 1, 3] : Fin 3 → Fin S8x512x1x64.rank)
  bcast_S8x128x64_S8x1x128x64_0_2_3 : S8x128x64.BroadcastsInDim S8x1x128x64 (![0, 2, 3] : Fin 3 → Fin S8x1x128x64.rank)
  bcast_S8x512x1x64_S8x512x128x64_0_1_2_3 : S8x512x1x64.BroadcastsInDim S8x512x128x64 (![0, 1, 2, 3] : Fin 4 → Fin S8x512x128x64.rank)
  bcast_S8x1x128x64_S8x512x128x64_0_1_2_3 : S8x1x128x64.BroadcastsInDim S8x512x128x64 (![0, 1, 2, 3] : Fin 4 → Fin S8x512x128x64.rank)
  bcast_S64_S1x1x1x64_3 : S64.BroadcastsInDim S1x1x1x64 (![3] : Fin 1 → Fin S1x1x1x64.rank)
  bcast_S1x1x1x64_S8x512x128x64_0_1_2_3 : S1x1x1x64.BroadcastsInDim S8x512x128x64 (![0, 1, 2, 3] : Fin 4 → Fin S8x512x128x64.rank)
  bcast_S_S8x512x128x64 : S_.BroadcastsInDim S8x512x128x64 (![] : Fin 0 → Fin S8x512x128x64.rank)
  dot_S8x512x512_S512x64_S8x512x64_2_0_01_1_n_n_wf : DotDims.WF S8x512x512 S512x64 S8x512x64 [2] [0] [0, 1] [1] [] []
  dot_S8x128x512_S512x64_S8x128x64_2_0_01_1_n_n_wf : DotDims.WF S8x128x512 S512x64 S8x128x64 [2] [0] [0, 1] [1] [] []
  dot_S8x512x128x64_S64x64_S8x512x128x64_3_0_012_1_n_n_wf : DotDims.WF S8x512x128x64 S64x64 S8x512x128x64 [3] [0] [0, 1, 2] [1] [] []

variable [Facts₀]

def dot_S8x512x512_S512x64_S8x512x64_2_0_01_1_n_n : DotDims S8x512x512 S512x64 S8x512x64 where
  lhsContracting := [2]
  rhsContracting := [0]
  lhsNonContracting := [0, 1]
  rhsNonContracting := [1]
  lhsBatch := []
  rhsBatch := []
  wf := dot_S8x512x512_S512x64_S8x512x64_2_0_01_1_n_n_wf
def dot_S8x128x512_S512x64_S8x128x64_2_0_01_1_n_n : DotDims S8x128x512 S512x64 S8x128x64 where
  lhsContracting := [2]
  rhsContracting := [0]
  lhsNonContracting := [0, 1]
  rhsNonContracting := [1]
  lhsBatch := []
  rhsBatch := []
  wf := dot_S8x128x512_S512x64_S8x128x64_2_0_01_1_n_n_wf
def dot_S8x512x128x64_S64x64_S8x512x128x64_3_0_012_1_n_n : DotDims S8x512x128x64 S64x64 S8x512x128x64 where
  lhsContracting := [3]
  rhsContracting := [0]
  lhsNonContracting := [0, 1, 2]
  rhsNonContracting := [1]
  lhsBatch := []
  rhsBatch := []
  wf := dot_S8x512x128x64_S64x64_S8x512x128x64_3_0_012_1_n_n_wf

class Facts : Prop extends Facts₀ where

variable [Facts]
-- ==== Proof.Spec.lean ====
/-
  The joint network's output, as one function of its seven argument arrays, on the extended reals.

  For a batch entry b, an acoustic frame t, a prediction step s and an output unit k,

      out b t s k = (Σ_j  relu( Σ_c A[b,t,c]·Wa[c,j]  +  Σ_c P[b,s,c]·Wp[c,j]  +  b1[j] ) · Wo[j,k])  +  b2[k],

  where relu x = max x 0, the inner sums run over the 512 input features and the outer sum over the 64 joint units.
  The sums are sums of extended reals; nothing here asks the entries to be finite. `G4` is this function as an
  array [8, 512, 128, 64]; `G3` is the same entries laid out [8, 512, 8192] with the last two axes merged (entry
  (b, t, l) is out b t (l / 64) (l % 64)), stated as the row-major reshape of `G4`.
-/
import Idealize.ShloMosaic.PureOps.Ideal
import Idealize.ShloMosaic.Lib.ValueIdx
import Idealize.ShloMosaic.Lib.Pipeline.Value

noncomputable section

open scoped BigOperators

namespace Cert.Joint

open Idealize.ShloMosaic Idealize.ShloMosaic.ValueIdx

/-- The hidden unit j at (b, t, s): the two projections and the bias added in this order, then relu. -/
def hid (A : (⟨3, ![8, 512, 512]⟩ : Shape).Idx → EReal) (P : (⟨3, ![8, 128, 512]⟩ : Shape).Idx → EReal)
    (Wa Wp : (⟨2, ![512, 64]⟩ : Shape).Idx → EReal) (b1 : (⟨1, ![64]⟩ : Shape).Idx → EReal)
    (b : Fin 8) (t : Fin 512) (s : Fin 128) (j : Fin 64) : EReal :=
  max ((∑ c : Fin 512, A (ix3 b t c) * Wa (ix2 c j)) + (∑ c : Fin 512, P (ix3 b s c) * Wp (ix2 c j)) + b1 (ix1 j)) 0

/-- The output unit k at (b, t, s): the hidden units through the output weights, plus the output bias. -/
def out (A : (⟨3, ![8, 512, 512]⟩ : Shape).Idx → EReal) (P : (⟨3, ![8, 128, 512]⟩ : Shape).Idx → EReal)
    (Wa Wp : (⟨2, ![512, 64]⟩ : Shape).Idx → EReal) (b1 : (⟨1, ![64]⟩ : Shape).Idx → EReal)
    (Wo : (⟨2, ![64, 64]⟩ : Shape).Idx → EReal) (b2 : (⟨1, ![64]⟩ : Shape).Idx → EReal)
    (b : Fin 8) (t : Fin 512) (s : Fin 128) (k : Fin 64) : EReal :=
  (∑ j : Fin 64, hid A P Wa Wp b1 b t s j * Wo (ix2 j k)) + b2 (ix1 k)

/-- The output as an array [8, 512, 128, 64]. -/
def G4 (A : (⟨3, ![8, 512, 512]⟩ : Shape).Idx → EReal) (P : (⟨3, ![8, 128, 512]⟩ : Shape).Idx → EReal)
    (Wa Wp : (⟨2, ![512, 64]⟩ : Shape).Idx → EReal) (b1 : (⟨1, ![64]⟩ : Shape).Idx → EReal)
    (Wo : (⟨2, ![64, 64]⟩ : Shape).Idx → EReal) (b2 : (⟨1, ![64]⟩ : Shape).Idx → EReal) :
    (⟨4, ![8, 512, 128, 64]⟩ : Shape).Idx → EReal :=
  fun i => out A P Wa Wp b1 Wo b2 (i 0) (i 1) (i 2) (i 3)

/-- [8, 512, 128, 64] and [8, 512, 8192] have the same number of entries, -/
theorem casts_4_3 : (⟨4, ![8, 512, 128, 64]⟩ : Shape).ShapeCasts ⟨3, ![8, 512, 8192]⟩ := by decide

/-- The same entries with the last two axes merged, [8, 512, 8192]. -/
def G3 (A : (⟨3, ![8, 512, 512]⟩ : Shape).Idx → EReal) (P : (⟨3, ![8, 128, 512]⟩ : Shape).Idx → EReal)
    (Wa Wp : (⟨2, ![512, 64]⟩ : Shape).Idx → EReal) (b1 : (⟨1, ![64]⟩ : Shape).Idx → EReal)
    (Wo : (⟨2, ![64, 64]⟩ : Shape).Idx → EReal) (b2 : (⟨1, ![64]⟩ : Shape).Idx → EReal) :
    (⟨3, ![8, 512, 8192]⟩ : Shape).Idx → EReal :=
  shapeCast ⟨3, ![8, 512, 8192]⟩ (G4 A P Wa Wp b1 Wo b2) casts_4_3

/-- Entry (b, t, l) of the merged layout, for l = s · 64 + k, is out b t s k: both sit at the same row-major position. -/
theorem G3_apply (A : (⟨3, ![8, 512, 512]⟩ : Shape).Idx → EReal) (P : (⟨3, ![8, 128, 512]⟩ : Shape).Idx → EReal)
    (Wa Wp : (⟨2, ![512, 64]⟩ : Shape).Idx → EReal) (b1 : (⟨1, ![64]⟩ : Shape).Idx → EReal)
    (Wo : (⟨2, ![64, 64]⟩ : Shape).Idx → EReal) (b2 : (⟨1, ![64]⟩ : Shape).Idx → EReal)
    (b : Fin 8) (t : Fin 512) (s : Fin 128) (k : Fin 64) (l : Fin 8192) (hl : l.val = s.val * 64 + k.val) :
    G3 A P Wa Wp b1 Wo b2 (ix3 b t l) = out A P Wa Wp b1 Wo b2 b t s k := by
  unfold G3
  refine (shapeCast_apply (G4 A P Wa Wp b1 Wo b2) casts_4_3 (ix3 b t l) (ix4 b t s k) ?_).trans rfl
  rw [Shape.rowMajor_val_four, Shape.rowMajor_val_three]
  show ((b.val * 512 + t.val) * 128 + s.val) * 64 + k.val = (b.val * 512 + t.val) * 8192 + l.val
  omega

/-- Reshaping the merged layout back to [8, 512, 128, 64] gives the array `G4`. -/
theorem reshape_G3 (A : (⟨3, ![8, 512, 512]⟩ : Shape).Idx → EReal) (P : (⟨3, ![8, 128, 512]⟩ : Shape).Idx → EReal)
    (Wa Wp : (⟨2, ![512, 64]⟩ : Shape).Idx → EReal) (b1 : (⟨1, ![64]⟩ : Shape).Idx → EReal)
    (Wo : (⟨2, ![64, 64]⟩ : Shape).Idx → EReal) (b2 : (⟨1, ![64]⟩ : Shape).Idx → EReal)
    (h : (⟨3, ![8, 512, 8192]⟩ : Shape).ShapeCasts ⟨4, ![8, 512, 128, 64]⟩) :
    shapeCast ⟨4, ![8, 512, 128, 64]⟩ (G3 A P Wa Wp b1 Wo b2) h = G4 A P Wa Wp b1 Wo b2 :=
  shapeCast_shapeCast _ _ _

end Cert.Joint

end
-- ==== Proof.RefIsSpec.lean ====
/-
  The reference program computes the joint network's output `Cert.Joint.G4`.

  The reference is two projections (A·Wa over the acoustic frames, P·Wp over the prediction steps), each broadcast
  over the other's axis, their sum with the bias b1, relu, the product with Wo over the last axis, and the bias b2.
  Read at an index (b, t, s, k), every broadcast only drops or keeps coordinates, every product is the sum over its one
  contracted axis, and what is left is the formula of `Cert.Joint.out` term by term.
-/
import proofs.«142399_j41403484733770_2_alg».proof.Proof.Gen.ReferenceIdeal.Read
import proofs.«142399_j41403484733770_2_alg».proof.Proof.Spec

noncomputable section

open scoped BigOperators

namespace Cert.ReferenceIdeal.RefValue

open Cert.ReferenceIdeal Cert.ReferenceIdeal.Read Idealize.ShloMosaic Idealize.ShloMosaic.ValueIdx

/-- The acoustic operand's index under the first projection, seen from output index (b, t, s, ·) and hidden unit j. -/
theorem idxA (b : Fin 8) (t : Fin 512) (s : Fin 128) (k j : Fin 64) (c : Fin 512) :
    lidx_main_v0 (idx_main_v2 (idx_main_v4 (lidx_main_v11 (ix4 b t s k) j))) c = ix3 b t c :=
  funext fun a => by match a with | ⟨0, _⟩ => rfl | ⟨1, _⟩ => rfl | ⟨2, _⟩ => rfl

/-- The first projection's weight index. -/
theorem idxWa (b : Fin 8) (t : Fin 512) (s : Fin 128) (k j : Fin 64) (c : Fin 512) :
    ridx_main_v0 (idx_main_v2 (idx_main_v4 (lidx_main_v11 (ix4 b t s k) j))) c = ix2 c j :=
  funext fun a => by match a with | ⟨0, _⟩ => rfl | ⟨1, _⟩ => rfl

/-- The prediction operand's index under the second projection. -/
theorem idxP (b : Fin 8) (t : Fin 512) (s : Fin 128) (k j : Fin 64) (c : Fin 512) :
    lidx_main_v1 (idx_main_v3 (idx_main_v5 (lidx_main_v11 (ix4 b t s k) j))) c = ix3 b s c :=
  funext fun a => by match a with | ⟨0, _⟩ => rfl | ⟨1, _⟩ => rfl | ⟨2, _⟩ => rfl

/-- The second projection's weight index. -/
theorem idxWp (b : Fin 8) (t : Fin 512) (s : Fin 128) (k j : Fin 64) (c : Fin 512) :
    ridx_main_v1 (idx_main_v3 (idx_main_v5 (lidx_main_v11 (ix4 b t s k) j))) c = ix2 c j :=
  funext fun a => by match a with | ⟨0, _⟩ => rfl | ⟨1, _⟩ => rfl

/-- The hidden bias's index. -/
theorem idxB1 (b : Fin 8) (t : Fin 512) (s : Fin 128) (k j : Fin 64) :
    idx_main_v7 (idx_main_v8 (lidx_main_v11 (ix4 b t s k) j)) = ix1 j :=
  funext fun a => by match a with | ⟨0, _⟩ => rfl

/-- The output weight's index. -/
theorem idxWo (b : Fin 8) (t : Fin 512) (s : Fin 128) (k j : Fin 64) :
    ridx_main_v11 (ix4 b t s k) j = ix2 j k :=
  funext fun a => by match a with | ⟨0, _⟩ => rfl | ⟨1, _⟩ => rfl

/-- The output bias's index. -/
theorem idxB2 (b : Fin 8) (t : Fin 512) (s : Fin 128) (k : Fin 64) :
    idx_main_v12 (idx_main_v13 (ix4 b t s k)) = ix1 k :=
  funext fun a => by match a with | ⟨0, _⟩ => rfl

/-- The reference's result is the joint network's output array. -/
theorem ref_eq (x0 : (⟨S8x512x512, .f32⟩ : BufTy).Contents (Elt Ideal)) (x1 : (⟨S8x128x512, .f32⟩ : BufTy).Contents (Elt Ideal))
    (x2 x3 : (⟨S512x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v14 (F := Ideal) x0 x1 x2 x3 x4 x5 x6 = Cert.Joint.G4 x0 x1 x2 x3 x4 x5 x6 := by
  funext i
  obtain ⟨b, t, s, k, rfl⟩ : ∃ (b : Fin 8) (t : Fin 512) (s : Fin 128) (k : Fin 64), i = ix4 b t s k :=
    ⟨i 0, i 1, i 2, i 3, eq_ix4 i⟩
  rw [val_main_v14_apply, val_main_v11_apply, val_main_v13_apply, val_main_v12_apply]
  simp only [val_main_v10_apply, val_main_v9_apply, val_main_v8_apply, val_main_v7_apply, val_main_v6_apply,
    val_main_v5_apply, val_main_v4_apply, val_main_v3_apply, val_main_v2_apply, val_main_v1_apply, val_main_v0_apply,
    val_main_call0_v0_apply, val_main_call0_cst_apply, idxA, idxWa, idxP, idxWp, idxB1, idxWo, idxB2,
    Ideal.ofBits_def, Ideal.ofBits_zero_f32]
  rfl

end Cert.ReferenceIdeal.RefValue

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibFlatten.lean ====
/-
  Merging the two leading axes of a rank-3 array, read at an index. A [a, b, c] array reshaped to [R, c] (R = a · b)
  keeps its row-major order, so row r = p · b + q of the flat array is the slab (p, q) of the original, column by
  column; and the reshape back reads the flat array at that row. General in the extents.
-/
import Idealize.ShloMosaic.Lib.Pipeline.Value
import Idealize.ShloMosaic.Lib.ValueIdx

namespace Cert.LibFlatten

open Idealize.ShloMosaic Idealize.ShloMosaic.ValueIdx

variable {α : Type}

/-- A `[a, b, c]` array cast to `[R, c]` reads, at `(r, k)` with `r = p · b + q`, the operand at `(p, q, k)`. -/
theorem shapeCast_abc_Rc_apply {a b c R : ℕ} (X : (⟨3, ![a, b, c]⟩ : Shape).Idx → α)
    (h : (⟨3, ![a, b, c]⟩ : Shape).ShapeCasts ⟨2, ![R, c]⟩) (p : Fin a) (q : Fin b) (k : Fin c) (r : Fin R)
    (hr : r.val = p.val * b + q.val) : shapeCast ⟨2, ![R, c]⟩ X h (ix2 r k) = X (ix3 p q k) :=
  shapeCast_apply X h _ _ (by
    rw [Shape.rowMajor_val_three, Shape.rowMajor_val_two]
    show (p.val * b + q.val) * c + k.val = r.val * c + k.val
    rw [hr])

/-- A `[R, c]` array cast to `[a, b, c]` reads, at `(p, q, k)`, the operand at `(r, k)` with `r = p · b + q`. -/
theorem shapeCast_Rc_abc_apply {a b c R : ℕ} (Y : (⟨2, ![R, c]⟩ : Shape).Idx → α)
    (h : (⟨2, ![R, c]⟩ : Shape).ShapeCasts ⟨3, ![a, b, c]⟩) (p : Fin a) (q : Fin b) (k : Fin c) (r : Fin R)
    (hr : r.val = p.val * b + q.val) : shapeCast ⟨3, ![a, b, c]⟩ Y h (ix3 p q k) = Y (ix2 r k) :=
  shapeCast_apply Y h _ _ (by
    rw [Shape.rowMajor_val_two, Shape.rowMajor_val_three]
    show r.val * c + k.val = (p.val * b + q.val) * c + k.val
    rw [hr])

end Cert.LibFlatten
-- ==== Proof.LibRank3Broadcast.lean ====
/-
  Rank-3 broadcasts along unit axes, and the shape casts that insert those unit axes, read by coordinates.

  A broadcast to a larger shape repeats the operand along each of its axes of extent one: the result at (p, q, k)
  is the operand at the same coordinates with 0 on the repeated axes. A reshape keeps the row-major order, and an
  axis of extent one adds nothing to an entry's position, so inserting unit axes keeps the other coordinates.
  General in the extents.
-/
import Idealize.ShloMosaic.Lib.Pipeline.Value
import Idealize.ShloMosaic.Lib.ValueIdx

namespace Cert.LibRank3Broadcast

open Idealize.ShloMosaic Idealize.ShloMosaic.ValueIdx

variable {α : Type}

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(p, q, k)`, the operand at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- A `[1, 1, c]` array broadcast to `[a, b, c]` reads, at `(p, q, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, c]` array cast to `[a, 1, c]` reads, at `(p, u, k)`, the operand at `(p, k)`: both sit at row-major
    position `p · c + k`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- A `[c]` array cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    simp)

end Cert.LibRank3Broadcast
-- ==== Proof.Payload.lean ====
/-
  What the kernel body stores, entry by entry, on the extended reals.

  At one grid point the body holds a block of 256 acoustic frames (x0, [1, 256, 512]), the 128 prediction steps of the
  same batch entry (x1, [1, 128, 512]) and the whole weights and biases. It forms the two projections as matrix
  products into zero, adds them over the (frame, step) grid with the bias, applies relu, flattens the (frame, step)
  grid to 32768 rows, multiplies by the output weights, adds the output bias, and lays the [32768, 64] result out as
  [1, 256, 8192]: row r · 128 + s, column k of the flat result is lane l = s · 64 + k of frame r. Entry (·, r, l) of
  the stored block is therefore

      (Σ_j relu( Σ_c x0[0,r,c]·x2[c,j] + Σ_c x1[0,s,c]·x3[c,j] + x4[j] ) · x5[j,k]) + x6[k].
-/
import proofs.«142399_j41403484733770_2_alg».proof.Proof.Gen.KernelIdeal.Skeleton
import proofs.«142399_j41403484733770_2_alg».proof.Proof.LibPlainDot
import proofs.«142399_j41403484733770_2_alg».proof.Proof.LibFlatten
import proofs.«142399_j41403484733770_2_alg».proof.Proof.LibRank3Broadcast
import Idealize.ShloMosaic.Lib.ValueLayout
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx
open Cert.LibRank3Broadcast

/-- The acoustic projection of the block, at frame r and unit j: the block's leading unit axis dropped, then the
    matrix product into zero as a sum over the 512 features. -/
theorem projA_apply (x0 : FVec Ideal S1x256x512 .f32) (x2 : FVec Ideal S512x64 .f32)
    (hc : S1x256x512.ShapeCasts S256x512) (r : Fin 256) (j : Fin 64) :
    matmul (F := Ideal) dot_S256x512_S512x64_S256x64_1_0_0_1_n_n none (shapeCast S256x512 x0 hc) x2
        (constant (F := Ideal) S256x64 .f32 0x00000000#32) (ix2 r j)
      = ∑ c : Fin 512, x0 (ix3 (0 : Fin 1) r c) * x2 (ix2 c j) := by
  refine (Cert.LibPlainDot.matmul_zero_apply 256 512 64 none _ x2 (ix2 r j)).trans ?_
  refine Finset.sum_congr rfl fun c _ => ?_
  refine congrArg₂ (· * ·) ?_ rfl
  exact shapeCast_1ab_ab_apply x0 hc r c

/-- The prediction projection of the block, at step s and unit j. -/
theorem projP_apply (x1 : FVec Ideal S1x128x512 .f32) (x3 : FVec Ideal S512x64 .f32)
    (hc : S1x128x512.ShapeCasts S128x512) (s : Fin 128) (j : Fin 64) :
    matmul (F := Ideal) dot_S128x512_S512x64_S128x64_1_0_0_1_n_n none (shapeCast S128x512 x1 hc) x3
        (constant (F := Ideal) S128x64 .f32 0x00000000#32) (ix2 s j)
      = ∑ c : Fin 512, x1 (ix3 (0 : Fin 1) s c) * x3 (ix2 c j) := by
  refine (Cert.LibPlainDot.matmul_zero_apply 128 512 64 none _ x3 (ix2 s j)).trans ?_
  refine Finset.sum_congr rfl fun c _ => ?_
  refine congrArg₂ (· * ·) ?_ rfl
  exact shapeCast_1ab_ab_apply x1 hc s c

/-- The hidden layer at (r, s, j): the frame projection repeated over the steps, the step projection repeated over
    the frames and the bias repeated over both, added in this order, then the maximum with zero. -/
theorem hidden_apply (v6 : FVec Ideal S256x64 .f32) (v7 : FVec Ideal S128x64 .f32) (x4 : FVec Ideal S64 .f32)
    (hc6 : S256x64.ShapeCasts S256x1x64) (hb6 : S256x1x64.Broadcasts S256x128x64)
    (hc7 : S128x64.ShapeCasts S1x128x64) (hb7 : S1x128x64.Broadcasts S256x128x64)
    (hc4 : S64.ShapeCasts S1x1x64) (hb4 : S1x1x64.Broadcasts S256x128x64)
    (r : Fin 256) (s : Fin 128) (j : Fin 64) :
    maximumf (addf (addf (broadcastTo S256x128x64 (shapeCast S256x1x64 v6 hc6) hb6)
          (broadcastTo S256x128x64 (shapeCast S1x128x64 v7 hc7) hb7))
        (broadcastTo S256x128x64 (shapeCast S1x1x64 x4 hc4) hb4))
      (broadcast S256x128x64 (Scalar.ofBits (F := Ideal) .f32 0x00000000#32)) (ix3 r s j)
      = max (v6 (ix2 r j) + v7 (ix2 s j) + x4 (ix1 j)) 0 := by
  refine (maximumf_apply _ _ _).trans ?_
  refine congrArg₂ max ?_ Ideal.ofBits_zero_f32
  refine (addf_apply _ _ _).trans ?_
  refine congrArg₂ (· + ·) ?_ ?_
  · refine (addf_apply _ _ _).trans ?_
    refine congrArg₂ (· + ·) ?_ ?_
    · exact (broadcastTo_a1c_abc_apply _ hb6 r s j).trans (shapeCast_ac_a1c_apply v6 hc6 r 0 j)
    · exact (broadcastTo_1bc_abc_apply _ hb7 r s j).trans (shapeCast_ab_1ab_apply v7 hc7 0 s j)
  · exact (broadcastTo_11c_abc_apply _ hb4 r s j).trans (shapeCast_c_11c_apply x4 hc4 0 0 j)

/-- The output layer and the final layout: entry (·, r, l) of the stored block, for l = s · 64 + k, is row
    r · 128 + s, column k of the flat product plus the output bias. -/
theorem output_apply (v18 : FVec Ideal S256x128x64 .f32) (x5 : FVec Ideal S64x64 .f32) (x6 : FVec Ideal S64 .f32)
    (hf : S256x128x64.ShapeCasts S32768x64) (hc6 : S64.ShapeCasts S1x64) (hb6 : S1x64.Broadcasts S32768x64)
    (hl1 : S32768x64.ShapeCasts S256x8192) (hl2 : S256x8192.ShapeCasts S1x256x8192)
    (u : Fin 1) (r : Fin 256) (s : Fin 128) (k : Fin 64) (l : Fin 8192) (hl : l.val = s.val * 64 + k.val) :
    shapeCast S1x256x8192 (shapeCast S256x8192 (addf (matmul (F := Ideal) dot_S32768x64_S64x64_S32768x64_1_0_0_1_n_n none
          (shapeCast S32768x64 v18 hf) x5 (constant (F := Ideal) S32768x64 .f32 0x00000000#32))
        (broadcastTo S32768x64 (shapeCast S1x64 x6 hc6) hb6)) hl1) hl2 (ix3 u r l)
      = (∑ j : Fin 64, v18 (ix3 r s j) * x5 (ix2 j k)) + x6 (ix1 k) := by
  have hrow : r.val * 128 + s.val < 32768 := by have := r.isLt; have := s.isLt; omega
  refine (shapeCast_ab_1ab_apply _ hl2 u r l).trans ?_
  refine (shapeCast_apply _ hl1 (ix2 r l) (ix2 (⟨r.val * 128 + s.val, hrow⟩ : Fin 32768) k) ?_).trans ?_
  · rw [Shape.rowMajor_val_two, Shape.rowMajor_val_two]
    show (r.val * 128 + s.val) * 64 + k.val = r.val * 8192 + l.val
    omega
  refine (addf_apply _ _ _).trans ?_
  refine congrArg₂ (· + ·) ?_ ?_
  · refine (Cert.LibPlainDot.matmul_zero_apply 32768 64 64 none _ x5 _).trans ?_
    refine Finset.sum_congr rfl fun j _ => ?_
    refine congrArg₂ (· * ·) ?_ rfl
    exact Cert.LibFlatten.shapeCast_abc_Rc_apply v18 hf r s j _ rfl
  · exact (broadcastTo_1b_ab_apply _ hb6 _ k).trans (shapeCast_a_1a_apply x6 hc6 0 k)

/-- THE STORED BLOCK AT AN ENTRY: for l = s · 64 + k, entry (u, r, l) of what the body stores is the joint network's
    formula on the block's rows. -/
theorem pay_apply (x0 : FVec Ideal S1x256x512 .f32) (x1 : FVec Ideal S1x128x512 .f32) (x2 x3 : FVec Ideal S512x64 .f32)
    (x4 : FVec Ideal S64 .f32) (x5 : FVec Ideal S64x64 .f32) (x6 : FVec Ideal S64 .f32)
    (u : Fin 1) (r : Fin 256) (s : Fin 128) (k : Fin 64) (l : Fin 8192) (hl : l.val = s.val * 64 + k.val) :
    k0_pay1 (F := Ideal) x0 x1 x2 x3 x4 x5 x6 (ix3 u r l)
      = (∑ j : Fin 64, max ((∑ c : Fin 512, x0 (ix3 (0 : Fin 1) r c) * x2 (ix2 c j))
            + (∑ c : Fin 512, x1 (ix3 (0 : Fin 1) s c) * x3 (ix2 c j)) + x4 (ix1 j)) 0 * x5 (ix2 j k))
          + x6 (ix1 k) := by
  unfold k0_pay1
  refine (output_apply _ x5 x6 _ _ _ _ _ u r s k l hl).trans ?_
  refine congrArg₂ (· + ·) (Finset.sum_congr rfl fun j _ => congrArg₂ (· * ·) ?_ rfl) rfl
  refine (hidden_apply _ _ x4 _ _ _ _ _ _ r s j).trans ?_
  rw [projA_apply, projP_apply]

end Cert.KernelIdeal.Payload

end
-- ==== Proof.Blocks.lean ====
/-
  From the blocks the grid points write back to the whole output array of the kernel's region.

  The grid is 8 batch entries by 2 halves of the 512 acoustic frames. At point (b, h) the acoustic window is frames
  256·h … 256·h + 255 of batch entry b, the prediction window is all 128 steps of batch entry b, the weights and
  biases are whole, and the output window is rows 256·h … 256·h + 255 of batch entry b in the merged layout
  [8, 512, 8192]. What a point writes back is the joint network's formula on exactly those rows, so it is the block
  of ONE array, `Cert.Joint.G3` of the arguments; the sixteen blocks tile the array (row i lies in the block of
  point (i₀, i₁ / 256)), hence after the region the array is `G3`.
-/
import proofs.«142399_j41403484733770_2_alg».proof.Proof.Gen.KernelIdeal.Frame
import proofs.«142399_j41403484733770_2_alg».proof.Proof.Payload
import proofs.«142399_j41403484733770_2_alg».proof.Proof.Spec
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The block indices at every grid point: the acoustic window moves with the output window on the batch and frame
    axes, the prediction window on the batch axis only, and every other block index is 0. -/
theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) ≤ 7 ∧ win0_7.index t (1 : Fin 3) ≤ 1 ∧ win0_7.index t (2 : Fin 3) = 0 :=
  (by decide +kernel : ∀ t : Fin grid0.N, _)

/-- Every (batch entry, half) is some grid point's output block. -/
theorem idx_onto : ∀ (q0 : Fin 8) (q1 : Fin 2), ∃ t : Fin cfg0.N, win0_7.index t = ![q0.val, q1.val, 0] :=
  (by decide +kernel : ∀ (q0 : Fin 8) (q1 : Fin 2), ∃ t : Fin grid0.N, win0_7.index t = ![q0.val, q1.val, 0])

/-! ## Each input block read at coordinates -/

/-- The acoustic block at point `t`: frame `r` of the block is frame `tt` of batch entry `bb`. -/
theorem blockA_apply (c : Dev nD) (t : Fin cfg0.N) (bb : Fin 8) (tt : Fin 512) (u : Fin 1) (r : Fin 256) (cc : Fin 512)
    (hb : bb.val = win0_7.index t (0 : Fin 3)) (ht : tt.val = win0_7.index t (1 : Fin 3) * 256 + r.val) :
    (iblk m c 0 t : FVec Ideal S1x256x512 .f32) (ix3 u r cc) = (V m c main_arg0 : S8x512x512.Idx → EReal) (ix3 bb tt cc) := by
  obtain ⟨e00, e01, e02, -⟩ := idx_facts t
  have hu : u.val = 0 := by omega
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * u.val = bb.val; omega
  | ⟨1, _⟩ => show win0_0.index t (1 : Fin 3) * 256 + 1 * r.val = tt.val; omega
  | ⟨2, _⟩ => show win0_0.index t (2 : Fin 3) * 512 + 1 * cc.val = cc.val; omega

/-- The prediction block at point `t`: all the steps of batch entry `bb`. -/
theorem blockP_apply (c : Dev nD) (t : Fin cfg0.N) (bb : Fin 8) (u : Fin 1) (s : Fin 128) (cc : Fin 512)
    (hb : bb.val = win0_7.index t (0 : Fin 3)) :
    (iblk m c 1 t : FVec Ideal S1x128x512 .f32) (ix3 u s cc) = (V m c main_arg1 : S8x128x512.Idx → EReal) (ix3 bb s cc) := by
  obtain ⟨-, -, -, e10, e11, e12, -⟩ := idx_facts t
  have hu : u.val = 0 := by omega
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * u.val = bb.val; omega
  | ⟨1, _⟩ => show win0_1.index t (1 : Fin 3) * 128 + 1 * s.val = s.val; omega
  | ⟨2, _⟩ => show win0_1.index t (2 : Fin 3) * 512 + 1 * cc.val = cc.val; omega

/-- The acoustic weights' block is the whole array. -/
theorem blockWa_apply (c : Dev nD) (t : Fin cfg0.N) (cc : Fin 512) (j : Fin 64) :
    (iblk m c 2 t : FVec Ideal S512x64 .f32) (ix2 cc j) = (V m c main_arg2 : S512x64.Idx → EReal) (ix2 cc j) := by
  obtain ⟨-, -, -, -, -, -, e20, e21, -⟩ := idx_facts t
  unfold iblk
  rw [View.read_apply]
  show V m c main_arg2 _ = V m c main_arg2 _
  refine congrArg (V m c main_arg2) (funext fun a => Fin.ext ?_)
  match a with
  | ⟨0, _⟩ => show win0_2.index t (0 : Fin 2) * 512 + 1 * cc.val = cc.val; omega
  | ⟨1, _⟩ => show win0_2.index t (1 : Fin 2) * 64 + 1 * j.val = j.val; omega

/-- The prediction weights' block is the whole array. -/
theorem blockWp_apply (c : Dev nD) (t : Fin cfg0.N) (cc : Fin 512) (j : Fin 64) :
    (iblk m c 3 t : FVec Ideal S512x64 .f32) (ix2 cc j) = (V m c main_arg3 : S512x64.Idx → EReal) (ix2 cc j) := by
  obtain ⟨-, -, -, -, -, -, -, -, e30, e31, -⟩ := idx_facts t
  unfold iblk
  rw [View.read_apply]
  show V m c main_arg3 _ = V m c main_arg3 _
  refine congrArg (V m c main_arg3) (funext fun a => Fin.ext ?_)
  match a with
  | ⟨0, _⟩ => show win0_3.index t (0 : Fin 2) * 512 + 1 * cc.val = cc.val; omega
  | ⟨1, _⟩ => show win0_3.index t (1 : Fin 2) * 64 + 1 * j.val = j.val; omega

/-- The hidden bias's block is the whole array. -/
theorem blockB1_apply (c : Dev nD) (t : Fin cfg0.N) (j : Fin 64) :
    (iblk m c 4 t : FVec Ideal S64 .f32) (ix1 j) = (V m c main_arg4 : S64.Idx → EReal) (ix1 j) := by
  obtain ⟨-, -, -, -, -, -, -, -, -, -, e40, -⟩ := idx_facts t
  unfold iblk
  rw [View.read_apply]
  show V m c main_arg4 _ = V m c main_arg4 _
  refine congrArg (V m c main_arg4) (funext fun a => Fin.ext ?_)
  match a with
  | ⟨0, _⟩ => show win0_4.index t (0 : Fin 1) * 64 + 1 * j.val = j.val; omega

/-- The output weights' block is the whole array. -/
theorem blockWo_apply (c : Dev nD) (t : Fin cfg0.N) (j k : Fin 64) :
    (iblk m c 5 t : FVec Ideal S64x64 .f32) (ix2 j k) = (V m c main_arg5 : S64x64.Idx → EReal) (ix2 j k) := by
  obtain ⟨-, -, -, -, -, -, -, -, -, -, -, e50, e51, -⟩ := idx_facts t
  unfold iblk
  rw [View.read_apply]
  show V m c main_arg5 _ = V m c main_arg5 _
  refine congrArg (V m c main_arg5) (funext fun a => Fin.ext ?_)
  match a with
  | ⟨0, _⟩ => show win0_5.index t (0 : Fin 2) * 64 + 1 * j.val = j.val; omega
  | ⟨1, _⟩ => show win0_5.index t (1 : Fin 2) * 64 + 1 * k.val = k.val; omega

/-- The output bias's block is the whole array. -/
theorem blockB2_apply (c : Dev nD) (t : Fin cfg0.N) (k : Fin 64) :
    (iblk m c 6 t : FVec Ideal S64 .f32) (ix1 k) = (V m c main_arg6 : S64.Idx → EReal) (ix1 k) := by
  obtain ⟨-, -, -, -, -, -, -, -, -, -, -, -, -, e60, -⟩ := idx_facts t
  unfold iblk
  rw [View.read_apply]
  show V m c main_arg6 _ = V m c main_arg6 _
  refine congrArg (V m c main_arg6) (funext fun a => Fin.ext ?_)
  match a with
  | ⟨0, _⟩ => show win0_6.index t (0 : Fin 1) * 64 + 1 * k.val = k.val; omega

/-! ## What a point writes back -/

/-- The joint network's output in the merged layout, of the argument arrays as the region finds them. -/
abbrev target (c : Dev nD) : S8x512x8192.Idx → EReal :=
  Cert.Joint.G3 (V m c main_arg0) (V m c main_arg1) (V m c main_arg2) (V m c main_arg3) (V m c main_arg4)
    (V m c main_arg5) (V m c main_arg6)

/-- WHAT POINT `t` WRITES BACK is block `t` of the target array. -/
theorem flushed_eq (c : Dev nD) (t : Fin cfg0.N) :
    (dats m 0 c).flushed 7 t = ((cfg0.win 7).blk t).view.read (Elt Ideal) (target m c) := by
  show (cfg0.win 7).cut (grid0.coords t) ((dats m 0 c).after 7 t) = _
  rw [after0_7]
  unfold out0_7
  rw [View.canon_unit_zero hz3]
  simp only [View.ld_unit_zero (S := S1x256x512) hz3, View.ld_unit_zero (S := S1x128x512) hz3,
    View.ld_unit_zero (S := S512x64) hz2, View.ld_unit_zero (S := S64) hz1, View.ld_unit_zero (S := S64x64) hz2]
  obtain ⟨-, -, -, -, -, -, -, -, -, -, -, -, -, -, b70, b71, e72⟩ := idx_facts t
  funext (y : S1x256x8192.Idx)
  obtain ⟨u, r, l, rfl⟩ : ∃ (u : Fin 1) (r : Fin 256) (l : Fin 8192), y = ix3 u r l := ⟨y 0, y 1, y 2, eq_ix3 y⟩
  have hu : u.val = 0 := by omega
  have hr : r.val < 256 := r.isLt
  have hl8 : l.val < 8192 := l.isLt
  -- the lane splits as step · 64 + unit
  obtain ⟨s, k, hl⟩ : ∃ (s : Fin 128) (k : Fin 64), l.val = s.val * 64 + k.val :=
    ⟨⟨l.val / 64, by omega⟩, ⟨l.val % 64, by omega⟩, by show l.val = l.val / 64 * 64 + l.val % 64; omega⟩
  -- the array's row this entry sits in
  have hbb : win0_7.index t (0 : Fin 3) < 8 := by omega
  have htt : win0_7.index t (1 : Fin 3) * 256 + r.val < 512 := by omega
  have hemb : ((cfg0.win 7).blk t).view.emb (ix3 u r l)
      = ix3 (⟨win0_7.index t (0 : Fin 3), hbb⟩ : Fin 8) (⟨win0_7.index t (1 : Fin 3) * 256 + r.val, htt⟩ : Fin 512) l := by
    funext a; apply Fin.ext
    match a with
    | ⟨0, _⟩ => show win0_7.index t (0 : Fin 3) * 1 + 1 * u.val = win0_7.index t (0 : Fin 3); omega
    | ⟨1, _⟩ => show win0_7.index t (1 : Fin 3) * 256 + 1 * r.val = win0_7.index t (1 : Fin 3) * 256 + r.val; omega
    | ⟨2, _⟩ => show win0_7.index t (2 : Fin 3) * 8192 + 1 * l.val = l.val; omega
  show k0_pay1 (F := Ideal) (iblk m c 0 t) (iblk m c 1 t) (iblk m c 2 t) (iblk m c 3 t) (iblk m c 4 t) (iblk m c 5 t)
      (iblk m c 6 t) (ix3 u r l) = target m c (((cfg0.win 7).blk t).view.emb (ix3 u r l))
  rw [hemb]
  refine (Cert.KernelIdeal.Payload.pay_apply (iblk m c 0 t) (iblk m c 1 t) (iblk m c 2 t) (iblk m c 3 t)
    (iblk m c 4 t) (iblk m c 5 t) (iblk m c 6 t) u r s k l hl).trans ?_
  refine Eq.trans ?_ (Cert.Joint.G3_apply _ _ _ _ _ _ _ _ _ s k l hl).symm
  unfold Cert.Joint.out Cert.Joint.hid
  simp only [blockA_apply m c t ⟨win0_7.index t (0 : Fin 3), hbb⟩ ⟨win0_7.index t (1 : Fin 3) * 256 + r.val, htt⟩ (0 : Fin 1) r _ rfl rfl,
    blockP_apply m c t ⟨win0_7.index t (0 : Fin 3), hbb⟩ (0 : Fin 1) s _ rfl,
    blockWa_apply m c t, blockWp_apply m c t, blockB1_apply m c t, blockWo_apply m c t, blockB2_apply m c t]

/-! ## The cover, and the array after the region -/

/-- An index of the array is in point `t`'s block iff each coordinate is in the block's range on its axis. -/
theorem mem_blk (t : Fin cfg0.N) (i : S8x512x8192.Idx) :
    i ∈ ((cfg0.win 7).blk t).view.set ↔ ∀ a : Fin 3, win0_7.index t a * S1x256x8192.size a ≤ (i a).val
      ∧ (i a).val < win0_7.index t a * S1x256x8192.size a + S1x256x8192.size a := by
  show i ∈ ((View.whole main_v0).slice (win0_7.rect t)).set ↔ _
  rw [View.set_slice_whole, Rect.mem_set_unit]
  exact Iff.rfl

/-- Every index of the array lies in the block of the point (its batch entry, the half its frame is in). -/
theorem cover (i : S8x512x8192.Idx) :
    ∃ t : Fin cfg0.N, (cfg0.win 7).flush t = true ∧ i ∈ ((cfg0.win 7).blk t).view.set := by
  have hi0 : (i 0).val < 8 := (i 0).isLt
  have hi1 : (i 1).val < 512 := (i 1).isLt
  have hi2 : (i 2).val < 8192 := (i 2).isLt
  obtain ⟨t, ht⟩ := idx_onto ⟨(i 0).val, hi0⟩ ⟨(i 1).val / 256, by omega⟩
  have q0 : win0_7.index t (0 : Fin 3) = (i 0).val := congrFun ht 0
  have q1 : win0_7.index t (1 : Fin 3) = (i 1).val / 256 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 8192 ≤ (i 2).val ∧ (i 2).val < win0_7.index t (2 : Fin 3) * 8192 + 8192; omega

/-- THE ARRAY AFTER THE REGION is the target array. -/
theorem final (c : Dev nD) : (dats m 0 c).arrAt 7 cfg0.N = target m c :=
  (dats m 0 c).arrAt_eq_of_cover 7 (target m c) (fun t _ => flushed_eq m c t) cover

end Cert.KernelIdeal.Blocks

end
-- ==== Proof.KernelRun.lean ====
/-
  The idealized kernel's run, read: its result array ends at the joint network's output `Cert.Joint.G4`.

  After the region the kernel's array holds the output in the merged layout [8, 512, 8192] (`Blocks.final`); the one
  host line after the region reshapes it to [8, 512, 128, 64], which is the same entries in row-major order, that is
  `G4`. The result buffer is no array of the pipeline, so the run's post gives it as the host line applied to the
  region's arrays; the argument arrays are the pipeline's input arrays and end unchanged.
-/
import proofs.«142399_j41403484733770_2_alg».proof.Proof.Blocks
import Idealize.ShloMosaic.Lib.StableHlo.Run
import Idealize.ShloMosaic.Lib.Pipeline.Value

set_option maxRecDepth 16384

noncomputable section

namespace Cert.KernelIdeal.KernelRun

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The result buffer is unscoped and is no window's array. -/
theorem result_rest : main_v1 ∈ Pipeline.restRefs sig spec0 :=
  Pipeline.mem_restRefs_of main_v1 rfl (by decide)

/-- The joint network's output, of the argument arrays in the launch memory. -/
abbrev result (c : Dev nD) : S8x512x128x64.Idx → EReal :=
  Cert.Joint.G4 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The host line after the region, applied to the region's arrays, leaves the result buffer at `result`: the
    reshape of the merged layout. -/
theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  have hw : Pipeline.withArrays (cfgs 0).spec c (V0 m c) (fun w => (dats m 0 c).arrAt w (cfgs 0).N)
      (Proc.devRef .tc main_v0) = Blocks.target m c :=
    (Pipeline.withArrays_arr spec0 launch0.win.arr_inj c _ _ 7).trans (Blocks.final m c)
  funext i
  show shapeCast S8x512x128x64 (Pipeline.withArrays (cfgs 0).spec c (V0 m c)
    (fun w => (dats m 0 c).arrAt w (cfgs 0).N) (Proc.devRef .tc main_v0)) shapeCasts_S8x512x8192_S8x512x128x64 i = _
  rw [hw]
  exact congrFun (Cert.Joint.reshape_G3 _ _ _ _ _ _ _ _) i

/-- THE RUN, READ: every weakly fair execution terminates with the result at the joint network's output of the
    arguments and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).2 main_v1 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.KernelRun

end
-- ==== Proof.lean ====
/-
  The kernel computes the joint network of a transducer: for a batch entry b, an acoustic frame t, a prediction step s
  and an output unit k,

      out b t s k = (Σ_j relu( Σ_c A[b,t,c]·Wa[c,j] + Σ_c P[b,s,c]·Wp[c,j] + b1[j] ) · Wo[j,k]) + b2[k].

  The kernel tiles (batch entry, half of the frames) over a grid of 16 points, forms at each point the two projections
  as matrix products into zero, adds them over the (frame, step) grid, applies relu, multiplies the flattened grid by
  Wo, adds b2, and writes its rows in a layout with the last two axes merged; a reshape after the region restores the
  four axes. The reference forms the same two projections for the whole batch, broadcasts and adds them, applies relu,
  and contracts the last axis with Wo. On the extended reals both are the formula above with the sums taken in the same
  grouping — (frame projection + step projection) + bias, maximum with zero, sum over the hidden units, + bias — so no
  law of arithmetic is needed and the finiteness of the inputs is never used: the kernel's side is read off its frame
  run block by block (Payload, Blocks, KernelRun), the reference's side off its run operation by operation (RefIsSpec),
  and both equal the one array `Cert.Joint.G4` of the arguments (Spec). The idealization rewrote nothing, so
  `preserves` is trivial; the three frames are the generated ones.
-/
import proofs.«142399_j41403484733770_2_alg».proof.Defs
import proofs.«142399_j41403484733770_2_alg».proof.Proof.Gen.Kernel
import proofs.«142399_j41403484733770_2_alg».proof.Proof.Gen.Kernel.Skeleton
import proofs.«142399_j41403484733770_2_alg».proof.Proof.Gen.Kernel.Launch
import proofs.«142399_j41403484733770_2_alg».proof.Proof.Gen.Kernel.Points
import proofs.«142399_j41403484733770_2_alg».proof.Proof.Gen.Kernel.Frame
import proofs.«142399_j41403484733770_2_alg».proof.Proof.Gen.KernelIdeal
import proofs.«142399_j41403484733770_2_alg».proof.Proof.Gen.KernelIdeal.Skeleton
import proofs.«142399_j41403484733770_2_alg».proof.Proof.Gen.KernelIdeal.Launch
import proofs.«142399_j41403484733770_2_alg».proof.Proof.Gen.KernelIdeal.Points
import proofs.«142399_j41403484733770_2_alg».proof.Proof.Gen.KernelIdeal.Frame
import proofs.«142399_j41403484733770_2_alg».proof.Proof.Gen.ReferenceIdeal
import proofs.«142399_j41403484733770_2_alg».proof.Proof.Gen.Pre_finite_inputs
import proofs.«142399_j41403484733770_2_alg».proof.Proof.Gen.ReferenceIdeal.Run
import proofs.«142399_j41403484733770_2_alg».proof.Proof.Gen.ReferenceIdeal.Read
import proofs.«142399_j41403484733770_2_alg».proof.Proof.Spec
import proofs.«142399_j41403484733770_2_alg».proof.Proof.RefIsSpec
import proofs.«142399_j41403484733770_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result and the reference's are the joint network's output of the arguments:
    the kernel's by its run read block by block, the reference's by its run read operation by operation. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _ _ _ _ _).trans ?_
  refine (Cert.ReferenceIdeal.RefValue.ref_eq _ _ _ _ _ _ _).trans ?_
  obtain ⟨a0, a1, a2, a3, a4, a5, a6⟩ := hagree c
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
